-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S4096 : Shape := ⟨1, ![4096]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x2048 .f32) (main_arg1 : FVec F S4096x2048 .f32) (main_arg2 : FVec F S4096 .f32) (main_arg3 : FVec F S4096 .f32) (main_arg4 : FVec F S4096 .f32) (main_arg5 : FVec F S4096 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8192x2048 : Shape := ⟨2, ![8192, 2048]⟩
abbrev S4096x2048 : Shape := ⟨2, ![4096, 2048]⟩
abbrev S4096 : Shape := ⟨1, ![4096]⟩
abbrev S1x4096 : Shape := ⟨2, ![1, 4096]⟩
abbrev S4x4096 : Shape := ⟨2, ![4, 4096]⟩
abbrev S8192x4096 : Shape := ⟨2, ![8192, 4096]⟩
abbrev S128x2048 : Shape := ⟨2, ![128, 2048]⟩
abbrev S128x4096 : Shape := ⟨2, ![128, 4096]⟩
abbrev S128x32x128 : Shape := ⟨3, ![128, 32, 128]⟩
abbrev S128x32 : Shape := ⟨2, ![128, 32]⟩
abbrev S128x32x1 : Shape := ⟨3, ![128, 32, 1]⟩

abbrev nBuf : Space → Nat
  | .hbm => 13
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x2048, .bf16⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S4x4096, .f32⟩
  | .hbm, ⟨12, _⟩ => ⟨S8192x4096, .f32⟩
  | .local _ .vmem, ⟨0, _⟩ => ⟨S128x2048, .f32⟩
  | .local _ .vmem, ⟨1, _⟩ => ⟨S128x2048, .f32⟩
  | .local _ .vmem, ⟨2, _⟩ => ⟨S4096x2048, .bf16⟩
  | .local _ .vmem, ⟨3, _⟩ => ⟨S4x4096, .f32⟩
  | .local _ .vmem, ⟨4, _⟩ => ⟨S128x4096, .f32⟩
  | .local _ .vmem, ⟨5, _⟩ => ⟨S128x4096, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S4096_S1x4096_1 : S4096.BroadcastsInDim S1x4096 (![1] : Fin 1 → Fin S1x4096.rank)
  concatenates_S1x4096_S1x4096_S1x4096_S1x4096_S4x4096_d0 : Shape.Concatenates [S1x4096, S1x4096, S1x4096, S1x4096] S4x4096 0
  inb_S128x2048_S128x2048_0_0 : ∀ a, (![0, 0] : Fin 2 → Nat) a + S128x2048.size a ≤ S128x2048.size a
  h_S128x2048 : 0 < S128x2048.numel
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S4x4096_S1x4096_0_0 : ∀ a, (![0, 0] : Fin 2 → Nat) a + S1x4096.size a ≤ S4x4096.size a
  h_S1x4096 : 0 < S1x4096.numel
  shapeCasts_S1x4096_S1x4096 : S1x4096.ShapeCasts S1x4096
  inb_S4x4096_S1x4096_1_0 : ∀ a, (![1, 0] : Fin 2 → Nat) a + S1x4096.size a ≤ S4x4096.size a
  inb_S4x4096_S1x4096_2_0 : ∀ a, (![2, 0] : Fin 2 → Nat) a + S1x4096.size a ≤ S4x4096.size a
  inb_S4x4096_S1x4096_3_0 : ∀ a, (![3, 0] : Fin 2 → Nat) a + S1x4096.size a ≤ S4x4096.size a
  broadcasts_S1x4096_S128x4096 : S1x4096.Broadcasts S128x4096
  shapeCasts_S128x4096_S128x32x128 : S128x4096.ShapeCasts S128x32x128
  reduces_S128x32x128_S128x32 : S128x32x128.Reduces [2] S128x32
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  inb_S128x4096_S128x4096_0_0 : ∀ a, (![0, 0] : Fin 2 → Nat) a + S128x4096.size a ≤ S128x4096.size a
  h_S128x4096 : 0 < S128x4096.numel
  dot_S128x2048_S4096x2048_S128x4096_1_1_0_0_n_n_wf : DotDims.WF S128x2048 S4096x2048 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2048.size a ≤ S4096x2048.size a
  hwx0_1 : ∀ i : grid0.Coords, EltTy.bits .bf16 = 32 ∨ (Rect.block (s := S4096x2048) S4096x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x4096.size a ≤ S4x4096.size a
  hwx0_2 : ∀ i : grid0.Coords, EltTy.bits .f32 = 32 ∨ (Rect.block (s := S4x4096) S4x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .f32 = 32 ∨ (Rect.block (s := S8192x4096) S128x4096.size (cc0_transform_3 i) (hinb0_3 i)).WholeWords (EltTy.packing .f32)

variable [Facts₀]

def dot_S128x2048_S4096x2048_S128x4096_1_1_0_0_n_n : DotDims S128x2048 S4096x2048 S128x4096 where
  lhsContracting := [1]
  rhsContracting := [1]
  lhsNonContracting := [0]
  rhsNonContracting := [0]
  lhsBatch := []
  rhsBatch := []
  wf := dot_S128x2048_S4096x2048_S128x4096_1_1_0_0_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S4096x2048 : Shape := ⟨2, ![4096, 2048]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩
abbrev S8192x32x128 : Shape := ⟨3, ![8192, 32, 128]⟩
abbrev S8192x32 : Shape := ⟨2, ![8192, 32]⟩
abbrev S8192x32x1 : Shape := ⟨3, ![8192, 32, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S8192x32x128, .f32⟩
  | .hbm, ⟨23, _⟩ => ⟨S_, .f32⟩
  | .hbm, ⟨24, _⟩ => ⟨S8192x32, .f32⟩
  | .hbm, ⟨25, _⟩ => ⟨S8192x32x1, .f32⟩
  | .hbm, ⟨26, _⟩ => ⟨S_, .f32⟩
  | .hbm, ⟨27, _⟩ => ⟨S8192x32x1, .f32⟩
  | .hbm, ⟨28, _⟩ => ⟨S8192x32x1, .f32⟩
  | .hbm, ⟨29, _⟩ => ⟨S8192x32x128, .f32⟩
  | .hbm, ⟨30, _⟩ => ⟨S8192x32x128, .f32⟩
  | .hbm, ⟨31, _⟩ => ⟨S8192x32x128, .f32⟩
  | .hbm, ⟨32, _⟩ => ⟨S_, .f32⟩
  | .hbm, ⟨33, _⟩ => ⟨S8192x32, .f32⟩
  | .hbm, ⟨34, _⟩ => ⟨S8192x32x1, .f32⟩
  | .hbm, ⟨35, _⟩ => ⟨S_, .f32⟩
  | .hbm, ⟨36, _⟩ => ⟨S8192x32x1, .f32⟩
  | .hbm, ⟨37, _⟩ => ⟨S8192x32x1, .f32⟩
  | .hbm, ⟨38, _⟩ => ⟨S8192x32x128, .f32⟩
  | .hbm, ⟨39, _⟩ => ⟨S8192x32x128, .f32⟩
  | .hbm, ⟨40, _⟩ => ⟨S_, .f32⟩
  | .hbm, ⟨41, _⟩ => ⟨S8192x32x1, .f32⟩
  | .hbm, ⟨42, _⟩ => ⟨S8192x32x1, .f32⟩
  | .hbm, ⟨43, _⟩ => ⟨S8192x32x1, .f32⟩
  | .hbm, ⟨44, _⟩ => ⟨S8192x32x128, .f32⟩
  | .hbm, ⟨45, _⟩ => ⟨S8192x32x128, .f32⟩
  | .hbm, ⟨46, _⟩ => ⟨S8192x4096, .f32⟩
  | .hbm, ⟨47, _⟩ => ⟨S1x4096, .f32⟩
  | .hbm, ⟨48, _⟩ => ⟨S8192x4096, .f32⟩
  | .hbm, ⟨49, _⟩ => ⟨S8192x4096, .f32⟩
  | .hbm, ⟨50, _⟩ => ⟨S1x4096, .f32⟩
  | .hbm, ⟨51, _⟩ => ⟨S8192x4096, .f32⟩
  | .hbm, ⟨52, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  shapeCasts_S8192x32x128_S8192x4096 : S8192x32x128.ShapeCasts S8192x4096
  dot_S8192x2048_S4096x2048_S8192x4096_1_1_0_0_n_n_wf : DotDims.WF S8192x2048 S4096x2048 S8192x4096 [1] [1] [0] [0] [] []

variable [Facts₀]

def dot_S8192x2048_S4096x2048_S8192x4096_1_1_0_0_n_n : DotDims S8192x2048 S4096x2048 S8192x4096 where
  lhsContracting := [1]
  rhsContracting := [1]
  lhsNonContracting := [0]
  rhsNonContracting := [0]
  lhsBatch := []
  rhsBatch := []
  wf := dot_S8192x2048_S4096x2048_S8192x4096_1_1_0_0_n_n_wf

class Facts : Prop extends Facts₀ where

variable [Facts]
-- ==== Proof.FrameBits.lean ====
/- The frame of the printed program: the run of @main terminates and leaves its six argument arrays as launched.
   Written against the pipeline library: @main is one stretch of host operations followed by one pipelined region
   over a grid of 64 points; the kernel body reads its three input blocks whole and overwrites its output block. -/
import proofs.«178748_j1580547967783_2_alg».proof.Proof.Gen.Kernel.Launch
import proofs.«178748_j1580547967783_2_alg».proof.Proof.Gen.Kernel.Skeleton
import proofs.«178748_j1580547967783_2_alg».proof.Proof.Gen.Kernel.Points
import Idealize.ShloMosaic.Lib.Pipeline.FrameBody
import Idealize.ShloMosaic.Lib.Ring
import Idealize.ShloMosaic.Lib.Tactic

-- membership of an index in a rectangle with an axis of several thousand coordinates is checked structurally,
-- one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main before its region -/

/-- What core `c`'s TensorCore buffers hold when the region starts: the launch contents pushed through the six
    host operations (one conversion to bf16, four broadcasts of a vector to a one-row matrix, and the stacking of
    those four rows into a 4-row matrix). -/
abbrev V (c : Dev nD) (b : Ref sig .tc) : Buf (Elt F) ((c : Thread nD τ).loc b) :=
  StableHlo.after (hostOps0 (F := F)) (fun b => m (c, b)) b

/-- None of the six host operations allocates a buffer of its own. -/
theorem hostOps0_fresh : (hostOps0 : List (HloOp τ sig (Elt F))).Forall fun op => op.fresh = ∅ := by
  simp only [List.Forall]; repeat' constructor

/-- @main is its stretch of host operations followed by the region, so the region starts at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes one of the intermediate arrays, never `main_arg0`: it reaches the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))

/-- Every host operation writes one of the intermediate arrays, never `main_arg1`: it reaches the region as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))

/-- Every host operation writes one of the intermediate arrays, never `main_arg2`: it reaches the region as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))

/-- Every host operation writes one of the intermediate arrays, never `main_arg3`: it reaches the region as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))

/-- Every host operation writes one of the intermediate arrays, never `main_arg4`: it reaches the region as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))

/-- Every host operation writes one of the intermediate arrays, never `main_arg5`: it reaches the region as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- The block of window `w` at grid point `t`: the rectangle of the window's array (as the region finds it) that
    the window's index map selects there. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0: at every point its current staging buffer holds the window's block there, whether the
    pipeline copied it in at this point or at an earlier one (the block index has not moved since), for any proof
    data over the arrays `V` whose body leaves that buffer as it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1: at every point its current staging buffer holds the window's block there, whether the
    pipeline copied it in at this point or at an earlier one (the block index has not moved since), for any proof
    data over the arrays `V` whose body leaves that buffer as it found it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2: at every point its current staging buffer holds the window's block there, whether the
    pipeline copied it in at this point or at an earlier one (the block index has not moved since), for any proof
    data over the arrays `V` whose body leaves that buffer as it found it. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the region's post to the arguments -/

/-- Once the run is known to end in the library's frame post for proof data over the arrays `V`, each argument
    array ends as launched: `main_arg0` is the first window's array, an input, which the pipeline only reads;
    the other five are staged by no window and are left as the region found them; and the host operations had
    not touched any of the six. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The rectangles the body reads and writes -/

/-- The whole of the first input's [128,2048] block. -/
abbrev r0 : Rect S128x2048 := Rect.unit (s := S128x2048) ![0, 0] S128x2048.size inb_S128x2048_S128x2048_0_0
/-- The whole of the resident [4096,2048] matrix. -/
abbrev r1 : Rect S4096x2048 := Rect.unit (s := S4096x2048) ![0, 0] S4096x2048.size inb_S4096x2048_S4096x2048_0_0
/-- Row `k` of the resident [4,4096] matrix, as a [1,4096] rectangle. -/
abbrev r2_0 : Rect S4x4096 := Rect.unit (s := S4x4096) ![0, 0] S1x4096.size inb_S4x4096_S1x4096_0_0
abbrev r2_1 : Rect S4x4096 := Rect.unit (s := S4x4096) ![1, 0] S1x4096.size inb_S4x4096_S1x4096_1_0
abbrev r2_2 : Rect S4x4096 := Rect.unit (s := S4x4096) ![2, 0] S1x4096.size inb_S4x4096_S1x4096_2_0
abbrev r2_3 : Rect S4x4096 := Rect.unit (s := S4x4096) ![3, 0] S1x4096.size inb_S4x4096_S1x4096_3_0
/-- The whole of the output's [128,4096] block. -/
abbrev r3 : Rect S128x4096 := Rect.unit (s := S128x4096) ![0, 0] S128x4096.size inb_S128x4096_S128x4096_0_0

/-! ## What the body leaves in the output buffer -/

/-- The output buffer after the body, as a function of the three input blocks: the body's single store writes the
    payload (computed from the first block, the whole matrix and the four rows) over the whole buffer, so the
    buffer's earlier contents do not matter. -/
def out0_3 (x0 : Vec F S128x2048 .f32) (x1 : Vec F S4096x2048 .bf16) (x2 : Vec F S4x4096 .f32) : Vec F S128x4096 .f32 :=
  View.canon [⟨r3, k0_pay1 (View.ld x0 r0) (View.ld x1 r1) (View.ld x2 r2_0) (View.ld x2 r2_1) (View.ld x2 r2_2) (View.ld x2 r2_3)⟩]

/-- The single store's rectangle is the whole [128,4096] shape, so every index of the buffer lies in it. -/
theorem cover0_3 (p0 : Vec F S128x4096 .f32) (y : S128x4096.Idx) :
    ∃ pc ∈ ([⟨r3, p0⟩] : List (View.Piece (Elt F) S128x4096 .f32)), y ∈ pc.1.set :=
  View.cover_of_tiled [⟨r3, p0⟩] S128x4096.size (by rfl) y

/-! ## The body's triple -/

set_option maxHeartbeats 1000000 in
/-- The kernel body, run on whole staging buffers that hold `x0`, `x1`, `x2` (inputs) and anything (output): it
    loads the three inputs (the third row by row), loads the output buffer — a value it never uses —, and stores
    the payload over the whole output buffer. The inputs are left as they were; the output holds `out0_3 x0 x1 x2`. -/
theorem sound_kernel (c : Dev nD) (E : Set ℕ) (i : grid0.Coords)
    (arg1 : Memref sig .tc .vmem S128x2048 .f32) (harg1 : arg1.IsWhole) (arg2 : Memref sig .tc .vmem S4096x2048 .bf16) (harg2 : arg2.IsWhole)
    (arg3 : Memref sig .tc .vmem S4x4096 .f32) (harg3 : arg3.IsWhole) (arg4 : Memref sig .tc .vmem S128x4096 .f32) (harg4 : arg4.IsWhole)
    (x0 : Vec F S128x2048 .f32) (x1 : Vec F S4096x2048 .bf16) (x2 : Vec F S4x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__fused_kernel i arg1 harg1 arg2 harg2 arg3 harg3 arg4 harg4) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of the pipeline on core `c`. Its arrays are the region-entry contents `V`. After the body at
    point `t` each input's staging buffer still holds that window's block, and the output's holds `out0_3` of the
    three input blocks. The invariant is the library's plain one (the core's other scoped buffers and its generator
    register, at anything); the shares are full and nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are `V`'s, read off the definition without unfolding `V`. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- What the body finds in each input's staging buffer: the window's block at that point. For the first window the
    pipeline has just copied it in; for the two resident windows it was copied in at the first point and the body
    has left it alone since. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation at a grid point -/

/-- What the pipeline hands the body at point `t`: the invariant, the core's debts, and the four current staging
    buffers, each whole at what the proof data says it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it must hand back: the same, with each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. The three input buffers hold their blocks, so the body's triple applies with those
    blocks as `x0`, `x1`, `x2`; the invariant and the debts are not touched and pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation holds at every point: its two conjunctions over the four windows, written out
    window by window, are `bodyPre` and `bodyPost`. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with the statement below, which needs
-- plain definitions unfolded inside a metavariable's type
set_option backward.isDefEq.respectTransparency.types false in
/-- From any launch memory with zero counters, every weakly fair execution of @main on the TensorCores terminates,
    and in every final state each window's array is what the library computes from the proof data while every other
    unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates and the six argument arrays end as launched, at any reading `F` of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.FrameIdeal.lean ====
/- The frame of the printed program: the run of @main terminates and leaves its six argument arrays as launched.
   Written against the pipeline library: @main is one stretch of host operations followed by one pipelined region
   over a grid of 64 points; the kernel body reads its three input blocks whole and overwrites its output block. -/
import proofs.«178748_j1580547967783_2_alg».proof.Proof.Gen.KernelIdeal.Launch
import proofs.«178748_j1580547967783_2_alg».proof.Proof.Gen.KernelIdeal.Skeleton
import proofs.«178748_j1580547967783_2_alg».proof.Proof.Gen.KernelIdeal.Points
import Idealize.ShloMosaic.Lib.Pipeline.FrameBody
import Idealize.ShloMosaic.Lib.Ring
import Idealize.ShloMosaic.Lib.Tactic

-- membership of an index in a rectangle with an axis of several thousand coordinates is checked structurally,
-- one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main before its region -/

/-- What core `c`'s TensorCore buffers hold when the region starts: the launch contents pushed through the six
    host operations (one conversion to bf16, four broadcasts of a vector to a one-row matrix, and the stacking of
    those four rows into a 4-row matrix). -/
abbrev V (c : Dev nD) (b : Ref sig .tc) : Buf (Elt F) ((c : Thread nD τ).loc b) :=
  StableHlo.after (hostOps0 (F := F)) (fun b => m (c, b)) b

/-- None of the six host operations allocates a buffer of its own. -/
theorem hostOps0_fresh : (hostOps0 : List (HloOp τ sig (Elt F))).Forall fun op => op.fresh = ∅ := by
  simp only [List.Forall]; repeat' constructor

/-- @main is its stretch of host operations followed by the region, so the region starts at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes one of the intermediate arrays, never `main_arg0`: it reaches the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))

/-- Every host operation writes one of the intermediate arrays, never `main_arg1`: it reaches the region as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))

/-- Every host operation writes one of the intermediate arrays, never `main_arg2`: it reaches the region as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))

/-- Every host operation writes one of the intermediate arrays, never `main_arg3`: it reaches the region as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))

/-- Every host operation writes one of the intermediate arrays, never `main_arg4`: it reaches the region as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))

/-- Every host operation writes one of the intermediate arrays, never `main_arg5`: it reaches the region as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- The block of window `w` at grid point `t`: the rectangle of the window's array (as the region finds it) that
    the window's index map selects there. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0: at every point its current staging buffer holds the window's block there, whether the
    pipeline copied it in at this point or at an earlier one (the block index has not moved since), for any proof
    data over the arrays `V` whose body leaves that buffer as it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1: at every point its current staging buffer holds the window's block there, whether the
    pipeline copied it in at this point or at an earlier one (the block index has not moved since), for any proof
    data over the arrays `V` whose body leaves that buffer as it found it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2: at every point its current staging buffer holds the window's block there, whether the
    pipeline copied it in at this point or at an earlier one (the block index has not moved since), for any proof
    data over the arrays `V` whose body leaves that buffer as it found it. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the region's post to the arguments -/

/-- Once the run is known to end in the library's frame post for proof data over the arrays `V`, each argument
    array ends as launched: `main_arg0` is the first window's array, an input, which the pipeline only reads;
    the other five are staged by no window and are left as the region found them; and the host operations had
    not touched any of the six. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The rectangles the body reads and writes -/

/-- The whole of the first input's [128,2048] block. -/
abbrev r0 : Rect S128x2048 := Rect.unit (s := S128x2048) ![0, 0] S128x2048.size inb_S128x2048_S128x2048_0_0
/-- The whole of the resident [4096,2048] matrix. -/
abbrev r1 : Rect S4096x2048 := Rect.unit (s := S4096x2048) ![0, 0] S4096x2048.size inb_S4096x2048_S4096x2048_0_0
/-- Row `k` of the resident [4,4096] matrix, as a [1,4096] rectangle. -/
abbrev r2_0 : Rect S4x4096 := Rect.unit (s := S4x4096) ![0, 0] S1x4096.size inb_S4x4096_S1x4096_0_0
abbrev r2_1 : Rect S4x4096 := Rect.unit (s := S4x4096) ![1, 0] S1x4096.size inb_S4x4096_S1x4096_1_0
abbrev r2_2 : Rect S4x4096 := Rect.unit (s := S4x4096) ![2, 0] S1x4096.size inb_S4x4096_S1x4096_2_0
abbrev r2_3 : Rect S4x4096 := Rect.unit (s := S4x4096) ![3, 0] S1x4096.size inb_S4x4096_S1x4096_3_0
/-- The whole of the output's [128,4096] block. -/
abbrev r3 : Rect S128x4096 := Rect.unit (s := S128x4096) ![0, 0] S128x4096.size inb_S128x4096_S128x4096_0_0

/-! ## What the body leaves in the output buffer -/

/-- The output buffer after the body, as a function of the three input blocks: the body's single store writes the
    payload (computed from the first block, the whole matrix and the four rows) over the whole buffer, so the
    buffer's earlier contents do not matter. -/
def out0_3 (x0 : Vec F S128x2048 .f32) (x1 : Vec F S4096x2048 .bf16) (x2 : Vec F S4x4096 .f32) : Vec F S128x4096 .f32 :=
  View.canon [⟨r3, k0_pay1 (View.ld x0 r0) (View.ld x1 r1) (View.ld x2 r2_0) (View.ld x2 r2_1) (View.ld x2 r2_2) (View.ld x2 r2_3)⟩]

/-- The single store's rectangle is the whole [128,4096] shape, so every index of the buffer lies in it. -/
theorem cover0_3 (p0 : Vec F S128x4096 .f32) (y : S128x4096.Idx) :
    ∃ pc ∈ ([⟨r3, p0⟩] : List (View.Piece (Elt F) S128x4096 .f32)), y ∈ pc.1.set :=
  View.cover_of_tiled [⟨r3, p0⟩] S128x4096.size (by rfl) y

/-! ## The body's triple -/

set_option maxHeartbeats 1000000 in
/-- The kernel body, run on whole staging buffers that hold `x0`, `x1`, `x2` (inputs) and anything (output): it
    loads the three inputs (the third row by row), loads the output buffer — a value it never uses —, and stores
    the payload over the whole output buffer. The inputs are left as they were; the output holds `out0_3 x0 x1 x2`. -/
theorem sound_kernel (c : Dev nD) (E : Set ℕ) (i : grid0.Coords)
    (arg1 : Memref sig .tc .vmem S128x2048 .f32) (harg1 : arg1.IsWhole) (arg2 : Memref sig .tc .vmem S4096x2048 .bf16) (harg2 : arg2.IsWhole)
    (arg3 : Memref sig .tc .vmem S4x4096 .f32) (harg3 : arg3.IsWhole) (arg4 : Memref sig .tc .vmem S128x4096 .f32) (harg4 : arg4.IsWhole)
    (x0 : Vec F S128x2048 .f32) (x1 : Vec F S4096x2048 .bf16) (x2 : Vec F S4x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__fused_kernel i arg1 harg1 arg2 harg2 arg3 harg3 arg4 harg4) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of the pipeline on core `c`. Its arrays are the region-entry contents `V`. After the body at
    point `t` each input's staging buffer still holds that window's block, and the output's holds `out0_3` of the
    three input blocks. The invariant is the library's plain one (the core's other scoped buffers and its generator
    register, at anything); the shares are full and nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are `V`'s, read off the definition without unfolding `V`. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- What the body finds in each input's staging buffer: the window's block at that point. For the first window the
    pipeline has just copied it in; for the two resident windows it was copied in at the first point and the body
    has left it alone since. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation at a grid point -/

/-- What the pipeline hands the body at point `t`: the invariant, the core's debts, and the four current staging
    buffers, each whole at what the proof data says it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it must hand back: the same, with each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. The three input buffers hold their blocks, so the body's triple applies with those
    blocks as `x0`, `x1`, `x2`; the invariant and the debts are not touched and pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation holds at every point: its two conjunctions over the four windows, written out
    window by window, are `bodyPre` and `bodyPost`. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with the statement below, which needs
-- plain definitions unfolded inside a metavariable's type
set_option backward.isDefEq.respectTransparency.types false in
/-- From any launch memory with zero counters, every weakly fair execution of @main on the TensorCores terminates,
    and in every final state each window's array is what the library computes from the proof data while every other
    unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates and the six argument arrays end as launched, at any reading `F` of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.Spec.lean ====
/-
  The function both programs compute, one row at a time, on the extended reals.

  A row `xr` of 2048 inputs meets the 4096 x 2048 weight matrix `w`: channel `n` of the row is
  `z n = (∑ k, xr k * w n k) + bl n`, passed through `z * logistic z` and shifted by `be n` (`act`).
  The 4096 channels form 32 groups of 128 consecutive channels (`chan g l` is channel `128 g + l`);
  each group is normalised by its own mean and (biased) variance: `mean`, `dev`, `var`, and
  `norm y gw gb n = dev * rsqrt (var + eps) * gw n + gb n` with the group and lane of channel `n`.
  Rows never interact, so a block of rows of the input gives the same block of rows of the result.
-/
import Idealize.ShloMosaic.PureOps.Ideal
import Idealize.ShloMosaic.PureOps.Ideal.Laws
import Idealize.ShloMosaic.Lib.ValueIdx

noncomputable section

namespace Cert.Fused

open Idealize.ShloMosaic

/-- Channel `128 g + l`: lane `l` of group `g`. -/
def chan (g : Fin 32) (l : Fin 128) : Fin 4096 := ⟨g.val * 128 + l.val, by have := g.isLt; have := l.isLt; omega⟩
/-- The group of a channel. -/
def grp (n : Fin 4096) : Fin 32 := ⟨n.val / 128, by have := n.isLt; omega⟩
/-- The lane of a channel inside its group. -/
def lane (n : Fin 4096) : Fin 128 := ⟨n.val % 128, Nat.mod_lt _ (by decide)⟩

theorem chan_grp_lane (n : Fin 4096) : chan (grp n) (lane n) = n :=
  Fin.ext (by show n.val / 128 * 128 + n.val % 128 = n.val; omega)

/-- The group size 128 and the variance's shift, as the two programs spell them. -/
abbrev c128 : EReal := Ideal.ofBits .f32 0x43000000#32
abbrev eps : EReal := Ideal.ofBits .f32 0x3727C5AC#32

/-- The pattern `0x3F800000` is the number one. -/
theorem one_f32 : Ideal.ofBits .f32 0x3F800000#32 = 1 := by
  simp [Ideal.ofBits, Ideal.ieee, -EReal.coe_mul]; norm_num

/-- The logistic function as the quotient both programs can spell. -/
theorem logistic_eq (z : EReal) : Ideal.div 1 (1 + Ideal.exp (-z)) = Ideal.logistic z := rfl

/-- One row through the linear layer, the gated activation and the second bias. -/
def act (xr : Fin 2048 → EReal) (w : Fin 4096 → Fin 2048 → EReal) (bl be : Fin 4096 → EReal) (n : Fin 4096) : EReal :=
  ((∑ k : Fin 2048, xr k * w n k) + bl n) * Ideal.logistic ((∑ k : Fin 2048, xr k * w n k) + bl n) + be n

/-- A group's mean over its 128 lanes. -/
def mean (y : Fin 4096 → EReal) (g : Fin 32) : EReal := Ideal.div (∑ l : Fin 128, y (chan g l)) c128
/-- A channel's deviation from its group's mean. -/
def dev (y : Fin 4096 → EReal) (g : Fin 32) (l : Fin 128) : EReal := y (chan g l) - mean y g
/-- A group's biased variance. -/
def var (y : Fin 4096 → EReal) (g : Fin 32) : EReal := Ideal.div (∑ l : Fin 128, dev y g l * dev y g l) c128
/-- The normalised, scaled and shifted channel. -/
def norm (y gw gb : Fin 4096 → EReal) (n : Fin 4096) : EReal :=
  dev y (grp n) (lane n) * Ideal.rsqrt (var y (grp n) + eps) * gw n + gb n

end Cert.Fused

end
-- ==== Proof.KernelPay.lean ====
/-
  The kernel's payload read at an index, on the extended reals: row `p`, channel `n` of the [128,4096] block it stores
  is `norm` of row `p`'s activations `act` (Spec.lean). The payload is a chain of whole-array operations; the pointwise
  ones read at an index by definition, and each of the others — a row broadcast over the rows, the product against the
  transposed weights, the split of a row of 4096 channels into 32 groups of 128 lanes and its inverse, the sum over the
  lanes, the unit axis that sum leaves behind, and the spreading of a per-group value over the lanes — gets one lemma
  over a variable operand and explicit coordinates.
-/
import proofs.«178748_j1580547967783_2_alg».proof.Proof.Gen.KernelIdeal.Skeleton
import proofs.«178748_j1580547967783_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx Cert.Fused

/-! ## The operations that move data, read at explicit coordinates -/

/-- A one-row matrix spread over 128 rows reads, at row `p` and column `n`, the row's entry `n` (the cast of the
    row to its own shape changes nothing). -/
theorem rowcast_at (v : Vec Ideal S1x4096 .f32) (p : Fin 128) (n : Fin 4096) :
    broadcastTo S128x4096 (shapeCast S1x4096 v shapeCasts_S1x4096_S1x4096) broadcasts_S1x4096_S128x4096 (ix2 p n)
      = v (ix2 (0 : Fin 1) n) := by
  rw [shapeCast_self]
  exact broadcastTo_1b_ab_apply v broadcasts_S1x4096_S128x4096 p n

/-- The first coordinate of the left operand's index is the output's row, -/
theorem lhs_row (i : S128x4096.Idx) (q : dot_S128x2048_S4096x2048_S128x4096_1_1_0_0_n_n.contr.Idx) :
    (dot_S128x2048_S4096x2048_S128x4096_1_1_0_0_n_n.lhsIdx i q 0).val = (i 0).val := by
  unfold DotDims.lhsIdx
  rw [dif_neg (show ¬(0 : Fin S128x2048.rank) ∈ dot_S128x2048_S4096x2048_S128x4096_1_1_0_0_n_n.lhsBatch by decide),
    dif_pos (show (0 : Fin S128x2048.rank) ∈ dot_S128x2048_S4096x2048_S128x4096_1_1_0_0_n_n.lhsNonContracting by decide)]
  rfl
/-- and the first coordinate of the right operand's index is the output's column. -/
theorem rhs_row (i : S128x4096.Idx) (q : dot_S128x2048_S4096x2048_S128x4096_1_1_0_0_n_n.contr.Idx) :
    (dot_S128x2048_S4096x2048_S128x4096_1_1_0_0_n_n.rhsIdx i q 0).val = (i 1).val := by
  unfold DotDims.rhsIdx
  rw [dif_neg (show ¬(0 : Fin S4096x2048.rank) ∈ dot_S128x2048_S4096x2048_S128x4096_1_1_0_0_n_n.rhsBatch by decide),
    dif_pos (show (0 : Fin S4096x2048.rank) ∈ dot_S128x2048_S4096x2048_S128x4096_1_1_0_0_n_n.rhsNonContracting by decide)]
  rfl

/-- The product into a zero accumulator, both operands contracted along their second axis: entry `(p, n)` is the sum
    over `k` of row `p` of the first against row `n` of the second. On the extended reals the narrowing of the first
    operand to bf16 is the identity, as is the cast of the second to its own shape. -/
theorem prod_at (v0 : Vec Ideal S128x2048 .f32) (v2 : Vec Ideal S4096x2048 .bf16) (p : Fin 128) (n : Fin 4096) :
    matmul dot_S128x2048_S4096x2048_S128x4096_1_1_0_0_n_n none (truncf .bf16 v0 bitsLt_bf16_f32 : FVec Ideal S128x2048 .bf16)
        (shapeCast S4096x2048 v2 shapeCasts_S4096x2048_S4096x2048 : FVec Ideal S4096x2048 .bf16) (constant S128x4096 .f32 0x00000000#32) (ix2 p n)
      = ∑ k : Fin 2048, v0 (ix2 p k) * v2 (ix2 n k) := by
  rw [shapeCast_self]
  refine (Ideal.matmul_constant_zero_apply (φ₁ := .bf16) (φ₂ := .bf16) dot_S128x2048_S4096x2048_S128x4096_1_1_0_0_n_n none
    (truncf .bf16 v0 bitsLt_bf16_f32 : FVec Ideal S128x2048 .bf16) (v2 : FVec Ideal S4096x2048 .bf16) (ix2 p n)).trans ?_
  rw [← Equiv.sum_comp (contrEquiv1 dot_S128x2048_S4096x2048_S128x4096_1_1_0_0_n_n 2048 rfl rfl).symm]
  refine Finset.sum_congr rfl fun k _ => ?_
  have hk := contrEquiv1_symm_val dot_S128x2048_S4096x2048_S128x4096_1_1_0_0_n_n 2048 rfl rfl k
  have el : dot_S128x2048_S4096x2048_S128x4096_1_1_0_0_n_n.lhsIdx (ix2 p n)
      ((contrEquiv1 dot_S128x2048_S4096x2048_S128x4096_1_1_0_0_n_n 2048 rfl rfl).symm k) = ix2 p k :=
    funext fun a => Fin.ext (by
      match a with
      | ⟨0, _⟩ => exact lhs_row _ _
      | ⟨1, _⟩ => exact (dot_S128x2048_S4096x2048_S128x4096_1_1_0_0_n_n.lhsIdx_val_of_single rfl _ _).trans hk)
  have er : dot_S128x2048_S4096x2048_S128x4096_1_1_0_0_n_n.rhsIdx (ix2 p n)
      ((contrEquiv1 dot_S128x2048_S4096x2048_S128x4096_1_1_0_0_n_n 2048 rfl rfl).symm k) = ix2 n k :=
    funext fun a => Fin.ext (by
      match a with
      | ⟨0, _⟩ => exact rhs_row _ _
      | ⟨1, _⟩ => exact (dot_S128x2048_S4096x2048_S128x4096_1_1_0_0_n_n.rhsIdx_val_of_single rfl _ _).trans hk)
  rw [el, er]
  rfl

/-- A row of 4096 channels cut into 32 groups of 128 lanes: lane `l` of group `g` is channel `128 g + l`, both at
    row-major position `4096 p + 128 g + l`. -/
theorem split_at (y : FVec Ideal S128x4096 .f32) (p : Fin 128) (g : Fin 32) (l : Fin 128) :
    shapeCast S128x32x128 y shapeCasts_S128x4096_S128x32x128 (ix3 p g l) = y (ix2 p (chan g l)) :=
  shapeCast_apply y shapeCasts_S128x4096_S128x32x128 (ix3 p g l) (ix2 p (chan g l)) (by
    rw [Shape.rowMajor_val_two, Shape.rowMajor_val_three]
    have hp := p.isLt; have hg := g.isLt; have hl := l.isLt
    show p.val * 4096 + (g.val * 128 + l.val) = (p.val * 32 + g.val) * 128 + l.val
    omega)

/-- The sum along the lane axis: entry `(p, g)` adds the 128 lanes of group `g` in row `p`. -/
theorem lanesum_at (u : FVec Ideal S128x32x128 .f32) (p : Fin 128) (g : Fin 32) :
    multiReduction .add [2] S128x32 u 0x00000000#32 reduces_S128x32x128_S128x32 (.inl rfl) rfl (ix2 p g)
      = ∑ l : Fin 128, u (ix3 p g l) := by
  refine (Ideal.multiReduction_add_single u 0x00000000#32 reduces_S128x32x128_S128x32 (.inl rfl) rfl (ix2 p g)).trans ?_
  refine Finset.sum_congr rfl fun k _ => congrArg u (funext fun a => Fin.ext ?_)
  match a with
  | ⟨0, _⟩ => rfl
  | ⟨1, _⟩ => rfl
  | ⟨2, _⟩ => rfl

/-- A unit axis appended to a [128,32] array: the entry at `(p, g, 0)` is the one at `(p, g)`. -/
theorem keep_at (r : FVec Ideal S128x32 .f32) (p : Fin 128) (g : Fin 32) (u : Fin 1) :
    shapeCast S128x32x1 r shapeCasts_S128x32_S128x32x1 (ix3 p g u) = r (ix2 p g) :=
  shapeCast_apply r shapeCasts_S128x32_S128x32x1 (ix3 p g u) (ix2 p g) (by
    rw [Shape.rowMajor_val_two, Shape.rowMajor_val_three]
    have hu : u.val = 0 := by omega
    show p.val * 32 + g.val = (p.val * 32 + g.val) * 1 + u.val
    omega)

/-- A per-group value spread over the group's 128 lanes. -/
theorem spread_at (c : FVec Ideal S128x32x1 .f32) (p : Fin 128) (g : Fin 32) (l : Fin 128) :
    broadcastTo S128x32x128 c broadcasts_S128x32x1_S128x32x128 (ix3 p g l) = c (ix3 p g (0 : Fin 1)) :=
  broadcastTo_apply c broadcasts_S128x32x1_S128x32x128 (ix3 p g l) (ix3 p g (0 : Fin 1)) fun ax => by
    match ax with
    | ⟨0, _⟩ => show p.val = if (128 : ℕ) = 1 then 0 else p.val; rw [if_neg (by decide)]
    | ⟨1, _⟩ => show g.val = if (32 : ℕ) = 1 then 0 else g.val; rw [if_neg (by decide)]
    | ⟨2, _⟩ => show (0 : ℕ) = if (1 : ℕ) = 1 then 0 else l.val; rw [if_pos rfl]

/-- The groups merged back into a row of 4096 channels: channel `n` is lane `n % 128` of group `n / 128`. -/
theorem merge_at (u : FVec Ideal S128x32x128 .f32) (p : Fin 128) (n : Fin 4096) :
    shapeCast S128x4096 u shapeCasts_S128x32x128_S128x4096 (ix2 p n) = u (ix3 p (grp n) (lane n)) :=
  shapeCast_apply u shapeCasts_S128x32x128_S128x4096 (ix2 p n) (ix3 p (grp n) (lane n)) (by
    rw [Shape.rowMajor_val_two, Shape.rowMajor_val_three]
    have hp := p.isLt; have hn := n.isLt
    show (p.val * 32 + n.val / 128) * 128 + n.val % 128 = p.val * 4096 + n.val
    omega)

/-! ## The payload in parts -/

/-- The linear layer: the product plus the first bias row spread over the rows. -/
def zPart (v0 : Vec Ideal S128x2048 .f32) (v2 : Vec Ideal S4096x2048 .bf16) (v5 : Vec Ideal S1x4096 .f32) : FVec Ideal S128x4096 .f32 :=
  addf (matmul dot_S128x2048_S4096x2048_S128x4096_1_1_0_0_n_n none (truncf .bf16 v0 bitsLt_bf16_f32 : FVec Ideal S128x2048 .bf16)
      (shapeCast S4096x2048 v2 shapeCasts_S4096x2048_S4096x2048 : FVec Ideal S4096x2048 .bf16) (constant S128x4096 .f32 0x00000000#32))
    (broadcastTo S128x4096 (shapeCast S1x4096 v5 shapeCasts_S1x4096_S1x4096) broadcasts_S1x4096_S128x4096)

/-- The gated activation `z * logistic z` shifted by the second bias row. -/
def actPart (v0 : Vec Ideal S128x2048 .f32) (v2 : Vec Ideal S4096x2048 .bf16) (v5 v7 : Vec Ideal S1x4096 .f32) : FVec Ideal S128x4096 .f32 :=
  addf (mulf (zPart v0 v2 v5) (logistic (zPart v0 v2 v5)))
    (broadcastTo S128x4096 (shapeCast S1x4096 v7 shapeCasts_S1x4096_S1x4096) broadcasts_S1x4096_S128x4096)

/-- The activations by group and lane. -/
def splitPart (y : FVec Ideal S128x4096 .f32) : FVec Ideal S128x32x128 .f32 :=
  shapeCast S128x32x128 y shapeCasts_S128x4096_S128x32x128

/-- Each group's mean, on a trailing unit axis. -/
def meanPart (y : FVec Ideal S128x4096 .f32) : FVec Ideal S128x32x1 .f32 :=
  divf (shapeCast S128x32x1 (multiReduction .add [2] S128x32 (splitPart y) 0x00000000#32 reduces_S128x32x128_S128x32 (.inl rfl) rfl)
      shapeCasts_S128x32_S128x32x1)
    (broadcast S128x32x1 (Scalar.ofBits .f32 0x43000000#32))

/-- Each lane's deviation from its group's mean. -/
def devPart (y : FVec Ideal S128x4096 .f32) : FVec Ideal S128x32x128 .f32 :=
  subf (splitPart y) (broadcastTo S128x32x128 (meanPart y) broadcasts_S128x32x1_S128x32x128)

/-- Each group's mean squared deviation, on a trailing unit axis. -/
def varPart (y : FVec Ideal S128x4096 .f32) : FVec Ideal S128x32x1 .f32 :=
  divf (shapeCast S128x32x1 (multiReduction .add [2] S128x32 (mulf (devPart y) (devPart y)) 0x00000000#32 reduces_S128x32x128_S128x32 (.inl rfl) rfl)
      shapeCasts_S128x32_S128x32x1)
    (broadcast S128x32x1 (Scalar.ofBits .f32 0x43000000#32))

/-- The normalisation of an array `y` of activations: deviation times the inverse root of the shifted variance, back
    in rows of 4096 channels, scaled and shifted channel by channel. -/
def normPart (y : FVec Ideal S128x4096 .f32) (v9 v11 : Vec Ideal S1x4096 .f32) : FVec Ideal S128x4096 .f32 :=
  addf (mulf (shapeCast S128x4096 (mulf (devPart y)
          (broadcastTo S128x32x128 (rsqrt (addf (varPart y) (broadcast S128x32x1 (Scalar.ofBits .f32 0x3727C5AC#32))))
            broadcasts_S128x32x1_S128x32x128)) shapeCasts_S128x32x128_S128x4096)
      (broadcastTo S128x4096 (shapeCast S1x4096 v9 shapeCasts_S1x4096_S1x4096) broadcasts_S1x4096_S128x4096))
    (broadcastTo S128x4096 (shapeCast S1x4096 v11 shapeCasts_S1x4096_S1x4096) broadcasts_S1x4096_S128x4096)

/-- The printed payload is the normalisation of the activation: its bindings substituted. -/
theorem pay_parts (v0 : Vec Ideal S128x2048 .f32) (v2 : Vec Ideal S4096x2048 .bf16) (v5 v7 v9 v11 : Vec Ideal S1x4096 .f32) :
    k0_pay1 (F := Ideal) v0 v2 v5 v7 v9 v11 = normPart (actPart v0 v2 v5 v7) v9 v11 := rfl

/-! ## Each part at an index -/

theorem z_at (v0 : Vec Ideal S128x2048 .f32) (v2 : Vec Ideal S4096x2048 .bf16) (v5 : Vec Ideal S1x4096 .f32) (p : Fin 128) (n : Fin 4096) :
    zPart v0 v2 v5 (ix2 p n) = (∑ k : Fin 2048, v0 (ix2 p k) * v2 (ix2 n k)) + v5 (ix2 (0 : Fin 1) n) := by
  unfold zPart
  rw [addf_apply, prod_at, rowcast_at]

theorem act_at (v0 : Vec Ideal S128x2048 .f32) (v2 : Vec Ideal S4096x2048 .bf16) (v5 v7 : Vec Ideal S1x4096 .f32) (p : Fin 128) (n : Fin 4096) :
    actPart v0 v2 v5 v7 (ix2 p n)
      = act (fun k => v0 (ix2 p k)) (fun n k => v2 (ix2 n k)) (fun n => v5 (ix2 (0 : Fin 1) n)) (fun n => v7 (ix2 (0 : Fin 1) n)) n := by
  unfold actPart
  rw [addf_apply, mulf_apply, rowcast_at]
  show zPart v0 v2 v5 (ix2 p n) * Ideal.logistic (zPart v0 v2 v5 (ix2 p n)) + v7 (ix2 (0 : Fin 1) n) = _
  rw [z_at]
  rfl

variable (y : FVec Ideal S128x4096 .f32)

theorem splitPart_at (p : Fin 128) (g : Fin 32) (l : Fin 128) : splitPart y (ix3 p g l) = y (ix2 p (chan g l)) :=
  split_at y p g l

theorem mean_at (p : Fin 128) (g : Fin 32) (u : Fin 1) : meanPart y (ix3 p g u) = mean (fun n => y (ix2 p n)) g := by
  unfold meanPart mean
  rw [divf_apply, keep_at, lanesum_at, broadcast_apply]
  simp only [splitPart_at]
  rfl

theorem dev_at (p : Fin 128) (g : Fin 32) (l : Fin 128) : devPart y (ix3 p g l) = dev (fun n => y (ix2 p n)) g l := by
  unfold devPart dev
  rw [subf_apply, spread_at, mean_at, splitPart_at]

theorem var_at (p : Fin 128) (g : Fin 32) (u : Fin 1) : varPart y (ix3 p g u) = var (fun n => y (ix2 p n)) g := by
  unfold varPart var
  rw [divf_apply, keep_at, lanesum_at, broadcast_apply]
  simp only [mulf_apply, dev_at]
  rfl

theorem norm_at (v9 v11 : Vec Ideal S1x4096 .f32) (p : Fin 128) (n : Fin 4096) :
    normPart y v9 v11 (ix2 p n)
      = norm (fun n => y (ix2 p n)) (fun n => v9 (ix2 (0 : Fin 1) n)) (fun n => v11 (ix2 (0 : Fin 1) n)) n := by
  unfold normPart Cert.Fused.norm
  rw [addf_apply, mulf_apply, rowcast_at, rowcast_at, merge_at, mulf_apply, spread_at, dev_at]
  show dev (fun n => y (ix2 p n)) (grp n) (lane n)
      * Ideal.rsqrt (varPart y (ix3 p (grp n) (0 : Fin 1)) + eps) * v9 (ix2 (0 : Fin 1) n) + v11 (ix2 (0 : Fin 1) n) = _
  rw [var_at]

/-! ## The payload at an index -/

/-- Row `p`, channel `n` of the payload: the normalised activation of row `p` of the first operand against the
    weights, with the four rows as the two biases, the scale and the shift. -/
theorem pay_at (v0 : Vec Ideal S128x2048 .f32) (v2 : Vec Ideal S4096x2048 .bf16) (v5 v7 v9 v11 : Vec Ideal S1x4096 .f32) (p : Fin 128) (n : Fin 4096) :
    k0_pay1 (F := Ideal) v0 v2 v5 v7 v9 v11 (ix2 p n)
      = norm (act (fun k => v0 (ix2 p k)) (fun n k => v2 (ix2 n k)) (fun n => v5 (ix2 (0 : Fin 1) n)) (fun n => v7 (ix2 (0 : Fin 1) n)))
          (fun n => v9 (ix2 (0 : Fin 1) n)) (fun n => v11 (ix2 (0 : Fin 1) n)) n := by
  rw [pay_parts, norm_at]
  rw [show (fun n => actPart v0 v2 v5 v7 (ix2 p n))
      = act (fun k => v0 (ix2 p k)) (fun n k => v2 (ix2 n k)) (fun n => v5 (ix2 (0 : Fin 1) n)) (fun n => v7 (ix2 (0 : Fin 1) n))
    from funext fun n => act_at v0 v2 v5 v7 p n]

end Cert.KernelIdeal.PayValue

end
-- ==== Proof.KernelValue.lean ====
/-
  The kernel's program computes the row-wise function of Spec.lean over the whole result array.

  The region's output window is cut into 64 blocks of 128 rows; grid point `t` reads rows `128 t … 128 t + 127` of the
  first argument, the whole weight matrix (converted to bf16 on the way in, the identity on the extended reals) and
  the four vector arguments stacked as a 4-row matrix, and writes back block `t` of the result. Since the function
  works row by row, block `t` of the result is block `t` of one whole-array function `G`; the 64 blocks tile the
  array, so the array ends at `G`.
-/
import proofs.«178748_j1580547967783_2_alg».proof.Proof.FrameIdeal
import proofs.«178748_j1580547967783_2_alg».proof.Proof.Spec
import proofs.«178748_j1580547967783_2_alg».proof.Proof.KernelPay
import Idealize.ShloMosaic.Lib.Pipeline.Value
import Idealize.ShloMosaic.Lib.ValueIdx
import Idealize.ShloMosaic.Lib.StableHlo.Run

noncomputable section

namespace Cert.KernelIdeal.ArrValue

open Cert.KernelIdeal Cert.KernelIdeal.Gen Cert.KernelIdeal.Hand Idealize.ShloMosaic Idealize.ShloMosaic.TcCoe Idealize.SL.Sem
open Idealize.ShloMosaic.Pipeline (Dat)
open Cert.KernelIdeal.PayValue Idealize.ShloMosaic.ValueIdx Idealize.ShloMosaic.StableHlo Cert.Fused

variable (m : (ℓ : Loc nD τ sig) → Buf (Elt Ideal) ℓ) (ρ : Dev nD → PrngReg)

/-! ## The two arrays the host prepares for the region -/

/-- The resident matrix the region reads is the weight argument (the conversion to bf16 is the identity on the
    extended reals). -/
theorem entry_v0 (c : Dev nD) :
    (V m c main_v0 : S4096x2048.Idx → EReal) = truncf (F := Ideal) .bf16 (m ((c : Thread nD τ).loc main_arg1)) bitsLt_bf16_f32 := by
  dsimp only [Hand.V, hostOps0]; after_results; try rfl

/-- The 4-row matrix the region reads stacks the four vector arguments, each as one row. -/
theorem entry_v5 (c : Dev nD) :
    (V m c main_v5 : S4x4096.Idx → EReal) = concatenate S4x4096 0
      [⟨S1x4096, broadcastInDim S1x4096 ![1] bcast_S4096_S1x4096_1 (m ((c : Thread nD τ).loc main_arg2))⟩,
       ⟨S1x4096, broadcastInDim S1x4096 ![1] bcast_S4096_S1x4096_1 (m ((c : Thread nD τ).loc main_arg3))⟩,
       ⟨S1x4096, broadcastInDim S1x4096 ![1] bcast_S4096_S1x4096_1 (m ((c : Thread nD τ).loc main_arg4))⟩,
       ⟨S1x4096, broadcastInDim S1x4096 ![1] bcast_S4096_S1x4096_1 (m ((c : Thread nD τ).loc main_arg5))⟩]
      concatenates_S1x4096_S1x4096_S1x4096_S1x4096_S4x4096_d0 := by
  dsimp only [Hand.V, hostOps0]; after_results; try rfl

/-- A vector broadcast to a one-row matrix, read at column `n`. -/
theorem row_at (x : S4096.Idx → EReal) (n : Fin 4096) :
    broadcastInDim S1x4096 ![1] bcast_S4096_S1x4096_1 x (ix2 (0 : Fin 1) n) = x (ix1 n) :=
  broadcastInDim_apply _ bcast_S4096_S1x4096_1 x _ (ix1 n) (fun a => match a with
    | ⟨0, _⟩ => by show n.val = if (4096 : Nat) = 1 then 0 else n.val; rw [if_neg (by decide)])

/-- The four one-row matrices stacked. -/
abbrev rows4 (x2 x3 x4 x5 : S4096.Idx → EReal) : List ((s : Shape) × (s.Idx → EReal)) :=
  [⟨S1x4096, broadcastInDim S1x4096 ![1] bcast_S4096_S1x4096_1 x2⟩,
   ⟨S1x4096, broadcastInDim S1x4096 ![1] bcast_S4096_S1x4096_1 x3⟩,
   ⟨S1x4096, broadcastInDim S1x4096 ![1] bcast_S4096_S1x4096_1 x4⟩,
   ⟨S1x4096, broadcastInDim S1x4096 ![1] bcast_S4096_S1x4096_1 x5⟩]

/-- Row `r` of the stack is the `r`-th vector: rows 0, 1, 2, 3 in turn. -/
theorem stack_at_0 (x2 x3 x4 x5 : S4096.Idx → EReal) (n : Fin 4096) :
    concatenate S4x4096 0 (rows4 x2 x3 x4 x5) concatenates_S1x4096_S1x4096_S1x4096_S1x4096_S4x4096_d0 (ix2 (0 : Fin 4) n) = x2 (ix1 n) :=
  (concatenate_apply_piece (t := S4x4096) (0 : Fin 2) (rows4 x2 x3 x4 x5) concatenates_S1x4096_S1x4096_S1x4096_S1x4096_S4x4096_d0
    (ix2 (0 : Fin 4) n) 0 (show 0 < 4 by decide) S1x4096 _ rfl rfl 0 rfl (ix2 (0 : Fin 1) n)
    (fun b hb => match b with | ⟨0, _⟩ => absurd rfl hb | ⟨1, _⟩ => rfl) rfl).trans (row_at x2 n)
theorem stack_at_1 (x2 x3 x4 x5 : S4096.Idx → EReal) (n : Fin 4096) :
    concatenate S4x4096 0 (rows4 x2 x3 x4 x5) concatenates_S1x4096_S1x4096_S1x4096_S1x4096_S4x4096_d0 (ix2 (1 : Fin 4) n) = x3 (ix1 n) :=
  (concatenate_apply_piece (t := S4x4096) (0 : Fin 2) (rows4 x2 x3 x4 x5) concatenates_S1x4096_S1x4096_S1x4096_S1x4096_S4x4096_d0
    (ix2 (1 : Fin 4) n) 1 (show 1 < 4 by decide) S1x4096 _ rfl rfl 1 rfl (ix2 (0 : Fin 1) n)
    (fun b hb => match b with | ⟨0, _⟩ => absurd rfl hb | ⟨1, _⟩ => rfl) rfl).trans (row_at x3 n)
theorem stack_at_2 (x2 x3 x4 x5 : S4096.Idx → EReal) (n : Fin 4096) :
    concatenate S4x4096 0 (rows4 x2 x3 x4 x5) concatenates_S1x4096_S1x4096_S1x4096_S1x4096_S4x4096_d0 (ix2 (2 : Fin 4) n) = x4 (ix1 n) :=
  (concatenate_apply_piece (t := S4x4096) (0 : Fin 2) (rows4 x2 x3 x4 x5) concatenates_S1x4096_S1x4096_S1x4096_S1x4096_S4x4096_d0
    (ix2 (2 : Fin 4) n) 2 (show 2 < 4 by decide) S1x4096 _ rfl rfl 2 rfl (ix2 (0 : Fin 1) n)
    (fun b hb => match b with | ⟨0, _⟩ => absurd rfl hb | ⟨1, _⟩ => rfl) rfl).trans (row_at x4 n)
theorem stack_at_3 (x2 x3 x4 x5 : S4096.Idx → EReal) (n : Fin 4096) :
    concatenate S4x4096 0 (rows4 x2 x3 x4 x5) concatenates_S1x4096_S1x4096_S1x4096_S1x4096_S4x4096_d0 (ix2 (3 : Fin 4) n) = x5 (ix1 n) :=
  (concatenate_apply_piece (t := S4x4096) (0 : Fin 2) (rows4 x2 x3 x4 x5) concatenates_S1x4096_S1x4096_S1x4096_S1x4096_S4x4096_d0
    (ix2 (3 : Fin 4) n) 3 (show 3 < 4 by decide) S1x4096 _ rfl rfl 3 rfl (ix2 (0 : Fin 1) n)
    (fun b hb => match b with | ⟨0, _⟩ => absurd rfl hb | ⟨1, _⟩ => rfl) rfl).trans (row_at x5 n)

/-! ## Where the blocks sit -/

/-- The block indices of the four windows at grid point `t`, decided over the 64 points: the first input and the
    output move down one block of 128 rows per point; the two resident inputs stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The blocks the body reads, as rows of the arguments -/

/-- Row `p` of the block at point `t` is row `128 t + p` of the array. -/
def row (t : Fin cfg0.N) (p : Fin 128) : Fin 8192 :=
  ⟨t.val * 128 + p.val, by have ht : t.val < 64 := lt_of_lt_of_eq t.isLt N_0; have := p.isLt; omega⟩

/-- The first input's block at point `t`: rows `128 t … 128 t + 127` of the first argument. -/
theorem blk0_at (c : Dev nD) (t : Fin cfg0.N) (p : Fin 128) (k : Fin 2048) :
    iblk m c 0 t (ix2 p k) = m ((c : Thread nD τ).loc main_arg0) (ix2 (row t p) k) := by
  show V m c main_arg0 (((cfg0.win 0).blk t).view.emb (ix2 p k)) = _
  rw [V_main_arg0]
  obtain ⟨e0, e1, -⟩ := idx_facts t
  refine congrArg _ (funext fun a => Fin.ext ?_)
  match a with
  | ⟨0, _⟩ => show win0_0.index t (0 : Fin 2) * 128 + 1 * p.val = t.val * 128 + p.val; omega
  | ⟨1, _⟩ => show win0_0.index t (1 : Fin 2) * 2048 + 1 * k.val = k.val; omega

/-- The second input's block is the whole weight matrix at every point. -/
theorem blk1_at (c : Dev nD) (t : Fin cfg0.N) (n : Fin 4096) (k : Fin 2048) :
    iblk m c 1 t (ix2 n k) = m ((c : Thread nD τ).loc main_arg1) (ix2 n k) := by
  show (V m c main_v0 : S4096x2048.Idx → EReal) (((cfg0.win 1).blk t).view.emb (ix2 n k)) = _
  rw [entry_v0]
  obtain ⟨-, -, e0, e1, -⟩ := idx_facts t
  show m ((c : Thread nD τ).loc main_arg1) (((cfg0.win 1).blk t).view.emb (ix2 n k)) = _
  refine congrArg _ (funext fun a => Fin.ext ?_)
  match a with
  | ⟨0, _⟩ => show win0_1.index t (0 : Fin 2) * 4096 + 1 * n.val = n.val; omega
  | ⟨1, _⟩ => show win0_1.index t (1 : Fin 2) * 2048 + 1 * k.val = k.val; omega

/-- The third input's block is the whole 4-row matrix at every point. -/
theorem blk2_at (c : Dev nD) (t : Fin cfg0.N) (r : Fin 4) (n : Fin 4096) :
    iblk m c 2 t (ix2 r n) = (V m c main_v5 : S4x4096.Idx → EReal) (ix2 r n) := by
  show (V m c main_v5 : S4x4096.Idx → EReal) (((cfg0.win 2).blk t).view.emb (ix2 r n)) = _
  obtain ⟨-, -, -, -, e0, e1, -⟩ := idx_facts t
  refine congrArg _ (funext fun a => Fin.ext ?_)
  match a with
  | ⟨0, _⟩ => show win0_2.index t (0 : Fin 2) * 4 + 1 * r.val = r.val; omega
  | ⟨1, _⟩ => show win0_2.index t (1 : Fin 2) * 4096 + 1 * n.val = n.val; omega

/-! ## The whole array -/

/-- The output array as one function of the six arguments: row by row, the function of Spec.lean. -/
def G (c : Dev nD) : S8192x4096.Idx → EReal := fun i =>
  norm (act (fun k => m ((c : Thread nD τ).loc main_arg0) (ix2 (i 0) k)) (fun n k => m ((c : Thread nD τ).loc main_arg1) (ix2 n k))
      (fun n => m ((c : Thread nD τ).loc main_arg2) (ix1 n)) (fun n => m ((c : Thread nD τ).loc main_arg3) (ix1 n)))
    (fun n => m ((c : Thread nD τ).loc main_arg4) (ix1 n)) (fun n => m ((c : Thread nD τ).loc main_arg5) (ix1 n)) (i 1)

theorem hz : (![0, 0] : Fin 2 → Nat) = fun _ => 0 := funext fun a => by fin_cases a <;> rfl

/-- The output buffer after the body at row `p`, channel `n`, over any three input buffers: the row-wise function of
    row `p` of the first, the whole second, and the four rows of the third. -/
theorem out_at (x0 : Vec Ideal S128x2048 .f32) (x1 : Vec Ideal S4096x2048 .bf16) (x2 : Vec Ideal S4x4096 .f32) (p : Fin 128) (n : Fin 4096) :
    out0_3 x0 x1 x2 (ix2 p n)
      = norm (act (fun k => x0 (ix2 p k)) (fun n k => x1 (ix2 n k)) (fun n => x2 (ix2 (0 : Fin 4) n)) (fun n => x2 (ix2 (1 : Fin 4) n)))
          (fun n => x2 (ix2 (2 : Fin 4) n)) (fun n => x2 (ix2 (3 : Fin 4) n)) n := by
  unfold out0_3
  rw [View.canon_unit_zero hz, View.ld_unit_zero (S := S128x2048) hz, View.ld_unit_zero (S := S4096x2048) hz]
  refine (pay_at x0 x1 (View.ld x2 r2_0) (View.ld x2 r2_1) (View.ld x2 r2_2) (View.ld x2 r2_3) p n).trans ?_
  have e0 : (fun n : Fin 4096 => View.ld x2 r2_0 (ix2 (0 : Fin 1) n)) = fun n => x2 (ix2 (0 : Fin 4) n) :=
    funext fun n => congrArg x2 (funext fun a => Fin.ext (by
      match a with
      | ⟨0, _⟩ => rfl
      | ⟨1, _⟩ => show 0 + 1 * n.val = n.val; omega))
  have e1 : (fun n : Fin 4096 => View.ld x2 r2_1 (ix2 (0 : Fin 1) n)) = fun n => x2 (ix2 (1 : Fin 4) n) :=
    funext fun n => congrArg x2 (funext fun a => Fin.ext (by
      match a with
      | ⟨0, _⟩ => rfl
      | ⟨1, _⟩ => show 0 + 1 * n.val = n.val; omega))
  have e2 : (fun n : Fin 4096 => View.ld x2 r2_2 (ix2 (0 : Fin 1) n)) = fun n => x2 (ix2 (2 : Fin 4) n) :=
    funext fun n => congrArg x2 (funext fun a => Fin.ext (by
      match a with
      | ⟨0, _⟩ => rfl
      | ⟨1, _⟩ => show 0 + 1 * n.val = n.val; omega))
  have e3 : (fun n : Fin 4096 => View.ld x2 r2_3 (ix2 (0 : Fin 1) n)) = fun n => x2 (ix2 (3 : Fin 4) n) :=
    funext fun n => congrArg x2 (funext fun a => Fin.ext (by
      match a with
      | ⟨0, _⟩ => rfl
      | ⟨1, _⟩ => show 0 + 1 * n.val = n.val; omega))
  rw [e0, e1, e2, e3]

/-- What point `t` writes back is block `t` of `G`: the body's payload at row `p`, channel `n` of the block is
    the row-wise function of row `p` of the input block, which is row `128 t + p` of the first argument, and of
    the resident weights and rows, which are the other five arguments. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  funext j
  show out0_3 (iblk m c 0 t) (iblk m c 1 t) (iblk m c 2 t) j = G m c (((cfg0.win 3).blk t).view.emb j)
  obtain ⟨p, n, rfl⟩ : ∃ (p : Fin 128) (n : Fin 4096), j = ix2 p n := ⟨j 0, j 1, eq_ix2 j⟩
  have hemb : ((cfg0.win 3).blk t).view.emb (ix2 p n) = ix2 (row t p) n := by
    obtain ⟨-, -, -, -, -, -, e0, e1⟩ := idx_facts t
    refine funext fun a => Fin.ext ?_
    match a with
    | ⟨0, _⟩ => show win0_3.index t (0 : Fin 2) * 128 + 1 * p.val = t.val * 128 + p.val; omega
    | ⟨1, _⟩ => show win0_3.index t (1 : Fin 2) * 4096 + 1 * n.val = n.val; omega
  rw [hemb]
  refine (out_at (iblk m c 0 t) (iblk m c 1 t) (iblk m c 2 t) p n).trans ?_
  have h0 : (fun k : Fin 2048 => iblk m c 0 t (ix2 p k)) = fun k => m ((c : Thread nD τ).loc main_arg0) (ix2 (row t p) k) :=
    funext fun k => blk0_at m c t p k
  have h1 : (fun (n : Fin 4096) (k : Fin 2048) => iblk m c 1 t (ix2 n k)) = fun n k => m ((c : Thread nD τ).loc main_arg1) (ix2 n k) :=
    funext fun n => funext fun k => blk1_at m c t n k
  have hr0 : (fun n : Fin 4096 => iblk m c 2 t (ix2 (0 : Fin 4) n)) = fun n => m ((c : Thread nD τ).loc main_arg2) (ix1 n) :=
    funext fun n => (blk2_at m c t 0 n).trans (by rw [entry_v5]; exact stack_at_0 _ _ _ _ n)
  have hr1 : (fun n : Fin 4096 => iblk m c 2 t (ix2 (1 : Fin 4) n)) = fun n => m ((c : Thread nD τ).loc main_arg3) (ix1 n) :=
    funext fun n => (blk2_at m c t 1 n).trans (by rw [entry_v5]; exact stack_at_1 _ _ _ _ n)
  have hr2 : (fun n : Fin 4096 => iblk m c 2 t (ix2 (2 : Fin 4) n)) = fun n => m ((c : Thread nD τ).loc main_arg4) (ix1 n) :=
    funext fun n => (blk2_at m c t 2 n).trans (by rw [entry_v5]; exact stack_at_2 _ _ _ _ n)
  have hr3 : (fun n : Fin 4096 => iblk m c 2 t (ix2 (3 : Fin 4) n)) = fun n => m ((c : Thread nD τ).loc main_arg5) (ix1 n) :=
    funext fun n => (blk2_at m c t 3 n).trans (by rw [entry_v5]; exact stack_at_3 _ _ _ _ n)
  rw [h0, h1, hr0, hr1, hr2, hr3]
  rfl
/-- An index of the array is in point `t`'s block iff each coordinate is in the block's range on its axis. -/
theorem mem_blk (t : Fin cfg0.N) (i : S8192x4096.Idx) :
    i ∈ ((cfg0.win 3).blk t).view.set ↔ ∀ a : Fin 2, win0_3.index t a * S128x4096.size a ≤ (i a).val ∧ (i a).val < win0_3.index t a * S128x4096.size a + S128x4096.size a := by
  show i ∈ ((View.whole main_v6).slice (win0_3.rect t)).set ↔ _
  rw [View.set_slice_whole, Rect.mem_set_unit]
  exact Iff.rfl

/-- Every row of the array lies in the block of the point `row / 128`. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  let t : Fin cfg0.N := ⟨(i 0).val / 128, by rw [show cfg0.N = 64 from N_0]; omega⟩
  refine ⟨t, flush0_3 t, ?_⟩
  rw [mem_blk]
  obtain ⟨-, -, -, -, -, -, e0, e1⟩ := idx_facts t
  have ht : t.val = (i 0).val / 128 := rfl
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 4096 ≤ (i 1).val ∧ (i 1).val < win0_3.index t (1 : Fin 2) * 4096 + 4096; omega

/-- The output array after the run is `G`. -/
theorem final (c : Dev nD) : (dats m 0 c).arrAt 3 cfg0.N = G m c :=
  (dats m 0 c).arrAt_eq_of_cover 3 (G m c) (fun t _ => flushed_eq m c t) cover

/-- The run of the kernel's program: it terminates with the result array at `G` and the six arguments unchanged. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.ArrValue

end
-- ==== Proof.RefIsSpec.lean ====
/-
  The reference program computes the row-wise function of Spec.lean: its result at row `b`, channel `n` is
  `norm` of row `b`'s activations `act`. Each stage of the reference is read at an index built from explicit
  coordinates; the only arithmetic is that channel `128 g + l` of a row of 4096 is lane `l` of group `g`.
-/
import proofs.«178748_j1580547967783_2_alg».proof.Proof.Gen.ReferenceIdeal.Read
import proofs.«178748_j1580547967783_2_alg».proof.Proof.Spec

noncomputable section

namespace Cert.ReferenceIdeal.RefValue

open Cert.ReferenceIdeal Cert.ReferenceIdeal.Read Idealize.ShloMosaic Idealize.ShloMosaic.ValueIdx Cert.Fused

variable (x0 : (⟨S8192x2048, .f32⟩ : BufTy).Contents (Elt Ideal)) (x1 : (⟨S4096x2048, .f32⟩ : BufTy).Contents (Elt Ideal))
  (x2 x3 x4 x5 : (⟨S4096, .f32⟩ : BufTy).Contents (Elt Ideal))

/-- Row `b` of the activations: the row of `x0` against the weights `x1` and the two biases. -/
def Y (b : Fin 8192) : Fin 4096 → EReal :=
  act (fun k => x0 (ix2 b k)) (fun n k => x1 (ix2 n k)) (fun n => x2 (ix1 n)) (fun n => x3 (ix1 n))

/-! ## Index equations -/

theorem lidx_eq (b : Fin 8192) (n : Fin 4096) (k : Fin 2048) : lidx_main_v0 (ix2 b n) k = ix2 b k :=
  funext fun a => Fin.ext (by match a with | ⟨0, _⟩ => rfl | ⟨1, _⟩ => rfl)
theorem ridx_eq (b : Fin 8192) (n : Fin 4096) (k : Fin 2048) : ridx_main_v0 (ix2 b n) k = ix2 n k :=
  funext fun a => Fin.ext (by match a with | ⟨0, _⟩ => rfl | ⟨1, _⟩ => rfl)
theorem row2_eq (b : Fin 8192) (n : Fin 4096) : idx_main_v1 (idx_main_v2 (ix2 b n)) = ix1 n :=
  funext fun a => Fin.ext (by match a with | ⟨0, _⟩ => rfl)
theorem row12_eq (b : Fin 8192) (n : Fin 4096) : idx_main_v11 (idx_main_v12 (ix2 b n)) = ix1 n :=
  funext fun a => Fin.ext (by match a with | ⟨0, _⟩ => rfl)
theorem row35_eq (b : Fin 8192) (n : Fin 4096) : idx_main_v34 (idx_main_v35 (ix2 b n)) = ix1 n :=
  funext fun a => Fin.ext (by match a with | ⟨0, _⟩ => rfl)
theorem row38_eq (b : Fin 8192) (n : Fin 4096) : idx_main_v37 (idx_main_v38 (ix2 b n)) = ix1 n :=
  funext fun a => Fin.ext (by match a with | ⟨0, _⟩ => rfl)

/-- Lane `l` of group `g` of row `b` sits at row-major position `(32 b + g) 128 + l = 4096 b + (128 g + l)`. -/
theorem split_eq (b : Fin 8192) (g : Fin 32) (l : Fin 128) : idx_main_v14 (ix3 b g l) = ix2 b (chan g l) :=
  funext fun a => Fin.ext (by
    have hb := b.isLt; have hg := g.isLt; have hl := l.isLt
    match a with
    | ⟨0, _⟩ => show ((b.val * 32 + g.val) * 128 + l.val) / 4096 = b.val; omega
    | ⟨1, _⟩ => show ((b.val * 32 + g.val) * 128 + l.val) % 4096 = g.val * 128 + l.val; omega)
/-- and channel `n` of row `b` is lane `n % 128` of group `n / 128`. -/
theorem merge_eq (b : Fin 8192) (n : Fin 4096) : idx_main_v33 (ix2 b n) = ix3 b (grp n) (lane n) :=
  funext fun a => Fin.ext (by
    have hb := b.isLt; have hn := n.isLt
    match a with
    | ⟨0, _⟩ => show (b.val * 4096 + n.val) / 4096 = b.val; omega
    | ⟨1, _⟩ => show (b.val * 4096 + n.val) / 128 % 32 = n.val / 128; omega
    | ⟨2, _⟩ => show (b.val * 4096 + n.val) % 128 = n.val % 128; omega)

theorem sum15_eq (b : Fin 8192) (g : Fin 32) (k : Fin 128) : idx_main_v15 (ix2 b g) k = ix3 b g k :=
  funext fun a => Fin.ext (by match a with | ⟨0, _⟩ => rfl | ⟨1, _⟩ => rfl | ⟨2, _⟩ => rfl)
theorem sum22_eq (b : Fin 8192) (g : Fin 32) (k : Fin 128) : idx_main_v22 (ix2 b g) k = ix3 b g k :=
  funext fun a => Fin.ext (by match a with | ⟨0, _⟩ => rfl | ⟨1, _⟩ => rfl | ⟨2, _⟩ => rfl)
theorem keep16_eq (b : Fin 8192) (g : Fin 32) (u : Fin 1) : idx_main_v16 (ix3 b g u) = ix2 b g :=
  funext fun a => Fin.ext (by match a with | ⟨0, _⟩ => rfl | ⟨1, _⟩ => rfl)
theorem keep23_eq (b : Fin 8192) (g : Fin 32) (u : Fin 1) : idx_main_v23 (ix3 b g u) = ix2 b g :=
  funext fun a => Fin.ext (by match a with | ⟨0, _⟩ => rfl | ⟨1, _⟩ => rfl)
theorem spread19_eq (b : Fin 8192) (g : Fin 32) (l : Fin 128) : idx_main_v19 (ix3 b g l) = ix3 b g (0 : Fin 1) :=
  funext fun a => Fin.ext (by match a with | ⟨0, _⟩ => rfl | ⟨1, _⟩ => rfl | ⟨2, _⟩ => rfl)
theorem spread26_eq (b : Fin 8192) (g : Fin 32) (l : Fin 128) : idx_main_v26 (ix3 b g l) = ix3 b g (0 : Fin 1) :=
  funext fun a => Fin.ext (by match a with | ⟨0, _⟩ => rfl | ⟨1, _⟩ => rfl | ⟨2, _⟩ => rfl)
theorem spread31_eq (b : Fin 8192) (g : Fin 32) (l : Fin 128) : idx_main_v31 (ix3 b g l) = ix3 b g (0 : Fin 1) :=
  funext fun a => Fin.ext (by match a with | ⟨0, _⟩ => rfl | ⟨1, _⟩ => rfl | ⟨2, _⟩ => rfl)

/-! ## The stages -/

theorem v3_at (b : Fin 8192) (n : Fin 4096) :
    val_main_v3 (F := Ideal) x0 x1 x2 (ix2 b n) = (∑ k : Fin 2048, x0 (ix2 b k) * x1 (ix2 n k)) + x2 (ix1 n) := by
  rw [val_main_v3_apply, val_main_v0_apply, val_main_v2_apply, val_main_v1_apply]
  simp only [lidx_eq, ridx_eq, row2_eq, Ideal.addf_def]

theorem v13_at (b : Fin 8192) (n : Fin 4096) :
    val_main_v13 (F := Ideal) x0 x1 x2 x3 (ix2 b n) = Y x0 x1 x2 x3 b n := by
  rw [val_main_v13_apply, val_main_v10_apply, val_main_v9_apply, val_main_v8_apply, val_main_v7_apply, val_main_v6_apply,
    val_main_v5_apply, val_main_v4_apply, val_main_v12_apply, val_main_v11_apply, val_main_cst_0_apply, val_main_cst_apply,
    v3_at, row12_eq]
  simp only [Ideal.addf_def, Ideal.mulf_def, Ideal.hostDivf_def, Ideal.hostUnary_exp_def, Ideal.hostNegf_def, Ideal.negf_def,
    Ideal.ofBits_def, one_f32, logistic_eq]
  rfl

theorem v14_at (b : Fin 8192) (g : Fin 32) (l : Fin 128) :
    val_main_v14 (F := Ideal) x0 x1 x2 x3 (ix3 b g l) = Y x0 x1 x2 x3 b (chan g l) := by
  rw [val_main_v14_apply, split_eq, v13_at]

theorem v18_at (b : Fin 8192) (g : Fin 32) (u : Fin 1) :
    val_main_v18 (F := Ideal) x0 x1 x2 x3 (ix3 b g u) = mean (Y x0 x1 x2 x3 b) g := by
  rw [val_main_v18_apply, val_main_v16_apply, keep16_eq, val_main_v15_apply, val_main_v17_apply, val_main_cst_1_apply,
    val_main_cst_2_apply]
  simp only [sum15_eq, v14_at, Ideal.hostDivf_def, Ideal.ofBits_def, Ideal.ofBits_zero_f32, zero_add]
  rfl

theorem v20_at (b : Fin 8192) (g : Fin 32) (l : Fin 128) :
    val_main_v20 (F := Ideal) x0 x1 x2 x3 (ix3 b g l) = dev (Y x0 x1 x2 x3 b) g l := by
  rw [val_main_v20_apply, val_main_v19_apply, spread19_eq, v18_at, v14_at]
  rfl

theorem v27_at (b : Fin 8192) (g : Fin 32) (l : Fin 128) :
    val_main_v27 (F := Ideal) x0 x1 x2 x3 (ix3 b g l) = dev (Y x0 x1 x2 x3 b) g l := by
  rw [val_main_v27_apply, val_main_v26_apply, spread26_eq, v18_at, v14_at]
  rfl

theorem v25_at (b : Fin 8192) (g : Fin 32) (u : Fin 1) :
    val_main_v25 (F := Ideal) x0 x1 x2 x3 (ix3 b g u) = var (Y x0 x1 x2 x3 b) g := by
  rw [val_main_v25_apply, val_main_v23_apply, keep23_eq, val_main_v22_apply, val_main_v24_apply, val_main_cst_3_apply,
    val_main_cst_4_apply]
  simp only [sum22_eq, val_main_v21_apply, v20_at, Ideal.hostDivf_def, Ideal.mulf_def, Ideal.ofBits_def, Ideal.ofBits_zero_f32, zero_add]
  rfl

theorem v33_at (b : Fin 8192) (n : Fin 4096) :
    val_main_v33 (F := Ideal) x0 x1 x2 x3 (ix2 b n)
      = dev (Y x0 x1 x2 x3 b) (grp n) (lane n) * Ideal.rsqrt (var (Y x0 x1 x2 x3 b) (grp n) + eps) := by
  rw [val_main_v33_apply, merge_eq, val_main_v32_apply, val_main_v31_apply, spread31_eq, val_main_v30_apply, val_main_v29_apply,
    val_main_v28_apply, val_main_cst_5_apply, v27_at, v25_at]
  rfl

/-- The reference's result at row `b`, channel `n`. -/
theorem v39_at (b : Fin 8192) (n : Fin 4096) :
    val_main_v39 (F := Ideal) x0 x1 x2 x3 x4 x5 (ix2 b n)
      = norm (Y x0 x1 x2 x3 b) (fun n => x4 (ix1 n)) (fun n => x5 (ix1 n)) n := by
  rw [val_main_v39_apply, val_main_v36_apply, val_main_v35_apply, val_main_v34_apply, row35_eq, val_main_v38_apply,
    val_main_v37_apply, row38_eq, v33_at]
  rfl

/-- The reference's whole result array, row by row. -/
theorem v39_eq : val_main_v39 (F := Ideal) x0 x1 x2 x3 x4 x5 = fun i : S8192x4096.Idx =>
    norm (act (fun k => x0 (ix2 (i 0) k)) (fun n k => x1 (ix2 n k)) (fun n => x2 (ix1 n)) (fun n => x3 (ix1 n)))
      (fun n => x4 (ix1 n)) (fun n => x5 (ix1 n)) (i 1) := by
  funext i
  obtain ⟨b, n, rfl⟩ : ∃ (b : Fin 8192) (n : Fin 4096), i = ix2 b n := ⟨i 0, i 1, eq_ix2 i⟩
  exact v39_at x0 x1 x2 x3 x4 x5 b n

end Cert.ReferenceIdeal.RefValue

end
-- ==== Proof.lean ====
/-
  The certificate: a fused linear layer, gated activation and group normalisation as a pipelined kernel, against its
  plain array-program reference.

  Frames. The kernel's program (read at the bit level and at the extended reals) is six host operations followed by
  one pipelined region over 64 grid points; its run terminates and leaves the arguments alone (FrameBits.lean,
  FrameIdeal.lean). The reference is a straight line of host operations; its frame is its run with the result dropped.

  Idealization. The ideal pass rewrote nothing, so there is nothing to preserve.

  Values. At the extended reals both programs compute, for row `b` and channel `n`, the function of Spec.lean:
  `z = x_b · w_n + bl_n`, `y = z · logistic z + be_n`, then each group of 128 consecutive channels of the row is
  centred by its mean, scaled by `rsqrt (variance + ε)`, multiplied by `gw_n` and shifted by `gb_n`. The kernel
  computes it block of rows by block of rows (KernelPay.lean, KernelValue.lean), the reference on the whole array
  (RefIsSpec.lean). The two spell the same sums, the same quotients by 128 and the same constants, so no law of
  arithmetic beyond reading both sides at an index is needed, and the inputs' finiteness is never used.
-/
import proofs.«178748_j1580547967783_2_alg».proof.Defs
import proofs.«178748_j1580547967783_2_alg».proof.Proof.Gen.Kernel
import proofs.«178748_j1580547967783_2_alg».proof.Proof.Gen.KernelIdeal
import proofs.«178748_j1580547967783_2_alg».proof.Proof.Gen.ReferenceIdeal
import proofs.«178748_j1580547967783_2_alg».proof.Proof.Gen.Pre_finite_inputs
import proofs.«178748_j1580547967783_2_alg».proof.Proof.FrameBits
import proofs.«178748_j1580547967783_2_alg».proof.Proof.FrameIdeal
import proofs.«178748_j1580547967783_2_alg».proof.Proof.KernelValue
import proofs.«178748_j1580547967783_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the six arguments, the kernel's program ends with its result array at the row-wise
    function `G` of its arguments, and the reference ends with its result at the same function of its own arguments,
    which are the same arrays. -/
theorem algebraic : Cert.algebraic_KernelIdeal_ReferenceIdeal := by
  intro m ρ m' ρ' _ hagree
  refine ⟨fun c => Cert.KernelIdeal.ArrValue.G m c, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v39_eq, h0, h1, h2, h3, h4, h5]
  exact Cert.ReferenceIdeal.RefValue.v39_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
